-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x200000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 114
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S1600000x1, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S1x200000, .i32⟩
  | .hbm, ⟨90, _⟩ => ⟨S200000, .i32⟩
  | .hbm, ⟨91, _⟩ => ⟨S1x200000, .i32⟩
  | .hbm, ⟨92, _⟩ => ⟨S200000, .i32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S_, .i32⟩
  | .hbm, ⟨103, _⟩ => ⟨S200000, .i32⟩
  | .hbm, ⟨104, _⟩ => ⟨S200000, .i1⟩
  | .hbm, ⟨105, _⟩ => ⟨S_, .i32⟩
  | .hbm, ⟨106, _⟩ => ⟨S200000, .i32⟩
  | .hbm, ⟨107, _⟩ => ⟨S200000, .i32⟩
  | .hbm, ⟨108, _⟩ => ⟨S200000, .i32⟩
  | .hbm, ⟨109, _⟩ => ⟨S200000x1, .i32⟩
  | .hbm, ⟨110, _⟩ => ⟨S200000x64, .f32⟩
  | .hbm, ⟨111, _⟩ => ⟨S200000x64, .f32⟩
  | .hbm, ⟨112, _⟩ => ⟨S_, .f32⟩
  | .hbm, ⟨113, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_12 : Ref sig .tc := ⟨.hbm, 93, rfl⟩
abbrev main_v72 : Ref sig .tc := ⟨.hbm, 94, rfl⟩
abbrev main_v73 : Ref sig .tc := ⟨.hbm, 95, rfl⟩
abbrev main_c_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_14 : Ref sig .tc := ⟨.hbm, 102, rfl⟩
abbrev main_v79 : Ref sig .tc := ⟨.hbm, 103, rfl⟩
abbrev main_v80 : Ref sig .tc := ⟨.hbm, 104, rfl⟩
abbrev main_c_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S2x200000, .i32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x200000, .i32⟩
  | 127 => ⟨S200000, .i32⟩
  | _ => ⟨S100000x128, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x64, .f32⟩
  | 9 => ⟨S1x200000, .i32⟩
  | 10 => ⟨S200000, .i32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x64, .f32⟩
  | 20 => ⟨S200000x64, .f32⟩
  | 21 => ⟨S_, .f32⟩
  | 22 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_20 : Ref sig .tc := ⟨.hbm, 128, rfl⟩
abbrev main_v97 : Ref sig .tc := ⟨.hbm, 129, rfl⟩
abbrev main_v98 : Ref sig .tc := ⟨.hbm, 130, rfl⟩
abbrev main_c_21 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_22 : Ref sig .tc := ⟨.hbm, 139, rfl⟩
abbrev main_v106 : Ref sig .tc := ⟨.hbm, 140, rfl⟩
abbrev main_v107 : Ref sig .tc := ⟨.hbm, 141, rfl⟩
abbrev main_c_23 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_24 : Ref sig .tc := ⟨.hbm, 149, rfl⟩
abbrev main_v114 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The run of the idealized program, with its result named.

  The program is five stretches: host operations, the first row-blocked matrix product, host operations, the second
  row-blocked product (with its bias-and-rectifier prologue), host operations. The buffer contents at the four
  boundaries between them are a fold from the launch memory: after a host stretch each buffer holds what the stretch's
  operations leave there; after a product's region the region's output array holds what its grid points wrote back and
  every other buffer holds what it held on entry. Every weakly fair execution terminates without a fault, and in its
  final state each unscoped buffer holds the last boundary's contents. Read at the seven argument arrays this is the
  frame statement (the fold walks back to the launch contents); read at the result buffer it says that the result is
  the last host stretch's term over the second region's exit contents, which is what the value proof starts from.
-/
import proofs.«137082_j79714593014200_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the seven argument arrays end as launched. -/
theorem run : θ_run defs (onTc (τ := τ) (main (F := F))) ⟨m, fun _ => 0, ρ⟩ (fun r => ∀ c : Dev nD,
      r.2.mem ((c.tc : Thread nD τ).loc main_v87) = W5 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v87 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.ResultRun

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibRowProducts.lean ====
/-
  Row-by-row matrix products on the extended reals.

  `matProd x w` is the product of `x : [M, K]` and `w : [K, N]`: entry `(p, q)` is the sum over `k` of
  `x (p, k) · w (k, q)`. `biasClamp z a b` adds a per-column bias `b` to every row of `a` and clamps each entry below at
  `z` (with `z` zero: bias, then rectifier). Entry `(p, q)` of a product reads row `p` of the left operand only, and entry
  `(p, k)` of `biasClamp` reads entry `(p, k)` only; so either, computed on a block of consecutive rows, is that block of
  rows of the whole (`matProd_block`, `biasClamp_block`): a product evaluated block of rows by block of rows is the product.
-/
import Idealize.ShloMosaic.PureOps.Ideal
import Idealize.ShloMosaic.Lib.ValueIdx

noncomputable section

open scoped BigOperators

namespace Cert.RowProducts

open Idealize.ShloMosaic Idealize.ShloMosaic.ValueIdx

/-- The product `x · w`. -/
def matProd {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_ix2 {M K N : ℕ} (x : (⟨2, ![M, K]⟩ : Shape).Idx → EReal) (w : (⟨2, ![K, N]⟩ : Shape).Idx → EReal)
    (p : Fin M) (q : Fin N) : matProd x w (ix2 p q) = ∑ k : Fin K, x (ix2 p k) * w (ix2 k q) := rfl

/-- Every row of `a` plus the bias `b`, each entry clamped below at `z`. -/
def biasClamp {M K : ℕ} (z : EReal) (a : (⟨2, ![M, K]⟩ : Shape).Idx → EReal) (b : Fin K → EReal) :
    (⟨2, ![M, K]⟩ : Shape).Idx → EReal :=
  fun i => max (a i + b (i 1)) z

theorem biasClamp_ix2 {M K : ℕ} (z : EReal) (a : (⟨2, ![M, K]⟩ : Shape).Idx → EReal) (b : Fin K → EReal)
    (p : Fin M) (k : Fin K) : biasClamp z a b (ix2 p k) = max (a (ix2 p k) + b k) z := rfl

/-- An entry of a product of blocks is the corresponding entry of the product of the whole arrays, when the block's row is
    the array's row and the block's column is the array's column. -/
theorem matProd_block {M m K N n : ℕ} (x : (⟨2, ![M, K]⟩ : Shape).Idx → EReal) (xb : (⟨2, ![m, K]⟩ : Shape).Idx → EReal)
    (w : (⟨2, ![K, N]⟩ : Shape).Idx → EReal) (wb : (⟨2, ![K, n]⟩ : Shape).Idx → EReal)
    (j : (⟨2, ![m, n]⟩ : Shape).Idx) (J : (⟨2, ![M, N]⟩ : Shape).Idx)
    (hx : ∀ k : Fin K, xb (ix2 (j 0) k) = x (ix2 (J 0) k)) (hw : ∀ k : Fin K, wb (ix2 k (j 1)) = w (ix2 k (J 1))) :
    matProd xb wb j = matProd x w J := by
  show ∑ k : Fin K, xb (ix2 (j 0) k) * wb (ix2 k (j 1)) = ∑ k : Fin K, x (ix2 (J 0) k) * w (ix2 k (J 1))
  exact Finset.sum_congr rfl fun k _ => by rw [hx k, hw k]

/-- The same for the bias and clamp: entry `(p, k)` of the block against entry `(P, k)` of the array. -/
theorem biasClamp_block {M m K : ℕ} (z : EReal) (a : (⟨2, ![M, K]⟩ : Shape).Idx → EReal) (ab : (⟨2, ![m, K]⟩ : Shape).Idx → EReal)
    (b bb : Fin K → EReal) (p : Fin m) (P : Fin M) (k : Fin K) (ha : ab (ix2 p k) = a (ix2 P k)) (hb : bb k = b k) :
    biasClamp z ab bb (ix2 p k) = biasClamp z a b (ix2 P k) := by
  rw [biasClamp_ix2, biasClamp_ix2, ha, hb]

end Cert.RowProducts

end
-- ==== Proof.Payloads.lean ====
/-
  What each kernel body stores, entry by entry, on the extended reals.

  The first body stores the product of its two loaded blocks: a change of float format is the identity on the extended
  reals, and a matrix multiplication into the zero accumulator is the plain sum of products. The second body first adds
  the one-row bias block to every row of its left block and clamps at zero, then multiplies by its right block.
-/
import proofs.«137082_j79714593014200_2_alg».proof.Proof.Gen.KernelIdeal.Skeleton
import proofs.«137082_j79714593014200_2_alg».proof.Proof.LibPlainMatmul
import proofs.«137082_j79714593014200_2_alg».proof.Proof.LibRowProducts
import Idealize.ShloMosaic.Lib.Pipeline.Value
import Idealize.ShloMosaic.Lib.ValueIdx
import Idealize.ShloMosaic.Lib.ValueLayout

noncomputable section

open scoped BigOperators

namespace Cert.KernelIdeal.Payloads

open Idealize.ShloMosaic Idealize.ShloMosaic.ValueIdx Cert.KernelIdeal Cert.KernelIdeal.Gen Cert.RowProducts

/-- The first body's stored block is the product of its loaded blocks. -/
theorem pay0_eq (x0 : Vec Ideal S2000x128 .f32) (x1 : Vec Ideal S128x128 .f32) :
    k0_pay1 x0 x1 = matProd (M := 2000) (K := 128) (N := 128) x0 x1 := by
  funext j
  obtain ⟨p, q, rfl⟩ : ∃ (p : Fin 2000) (q : Fin 128), j = ix2 p q := ⟨j 0, j 1, eq_ix2 j⟩
  unfold k0_pay1
  exact Cert.LibPlainMatmul.matmul_plain_zero_apply _ rfl none _ _ p q

/-- The second body's stored block: bias row added, clamped at zero, times the right block. -/
theorem pay1_eq (x0 : Vec Ideal S2000x128 .f32) (x1 : Vec Ideal S1x128 .f32) (x2 : Vec Ideal S128x64 .f32) :
    k1_pay1 x0 x1 x2 = matProd (M := 2000) (K := 128) (N := 64)
      (biasClamp (Ideal.ofBits .f32 0x00000000#32) x0 (fun k : Fin 128 => x1 (ix2 (0 : Fin 1) k))) x2 := by
  funext j
  obtain ⟨p, q, rfl⟩ : ∃ (p : Fin 2000) (q : Fin 64), j = ix2 p q := ⟨j 0, j 1, eq_ix2 j⟩
  unfold k1_pay1
  refine (Cert.LibPlainMatmul.matmul_plain_zero_apply _ rfl none _ _ p q).trans ?_
  rw [matProd_ix2]
  refine Finset.sum_congr rfl fun k _ => ?_
  rw [biasClamp_ix2]
  show max (shapeCast S2000x128 x0 shapeCasts_S2000x128_S2000x128 (ix2 p k)
        + broadcastTo S2000x128 (shapeCast S1x128 x1 shapeCasts_S1x128_S1x128) broadcasts_S1x128_S2000x128 (ix2 p k))
      (Ideal.ofBits .f32 0x00000000#32) * x2 (ix2 k q) = _
  rw [shapeCast_self, shapeCast_self, broadcastTo_1b_ab_apply]

end Cert.KernelIdeal.Payloads

end
-- ==== Proof.FirstProduct.lean ====
/-
  The first region's output array.

  The region runs the first kernel body at 50 grid points. Point `t` reads rows `2000·t … 2000·t + 1999` of the
  node-feature array and the whole weight matrix, and writes back rows `2000·t … 2000·t + 1999` of the output. What it
  writes is the product of its two blocks, which is that block of rows of the product of the whole arrays; the 50 blocks of
  rows tile the output, so after the region the output array is the whole product.
-/
import proofs.«137082_j79714593014200_2_alg».proof.Proof.Gen.KernelIdeal.Frame
import proofs.«137082_j79714593014200_2_alg».proof.Proof.Payloads
import Idealize.ShloMosaic.Lib.Pipeline.Value

set_option maxRecDepth 16384

noncomputable section

open scoped BigOperators

namespace Cert.KernelIdeal.FirstProduct

open Idealize.ShloMosaic Idealize.ShloMosaic.TcCoe Idealize.ShloMosaic.ValueIdx Idealize.SL.Sem
open Idealize.ShloMosaic.Pipeline (Dat)
open Cert.KernelIdeal Cert.KernelIdeal.Gen Cert.RowProducts

variable (V : (c : Dev nD) → (b : Ref sig .tc) → Buf (Elt Ideal) ((c : Thread nD τ).loc b))

theorem zeros : (![0, 0] : Fin 2 → Nat) = fun _ => 0 := funext fun a => by fin_cases a <;> rfl

/-- The block indices at point `t`: rows-block `t` of the features and of the output, the one block of the weights. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product, as a content of the output array. -/
abbrev whole (c : Dev nD) : (⟨2, ![100000, 128]⟩ : Shape).Idx → EReal :=
  matProd (M := 100000) (K := 128) (N := 128) (V c main_arg0) (V c main_arg3)

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zeros]
  simp only [View.ld_unit_zero (S := S2000x128) zeros, View.ld_unit_zero (S := S128x128) zeros]
  rw [Payloads.pay0_eq]
  obtain ⟨e0, e1, e2, e3, e4, e5⟩ := blocks t
  funext j
  show matProd (M := 2000) (K := 128) (N := 128) (iblk0 V c 0 t) (iblk0 V c 1 t) j
    = matProd (M := 100000) (K := 128) (N := 128) (V c main_arg0) (V c main_arg3) (((cfg0.win 2).blk t).view.emb j)
  refine matProd_block (M := 100000) (m := 2000) (K := 128) (N := 128) (n := 128) (V c main_arg0) (iblk0 V c 0 t)
    (V c main_arg3) (iblk0 V c 1 t) j (((cfg0.win 2).blk t).view.emb j) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 128 + 1 * k.val = k.val
      omega
  · show V c main_arg3 (((cfg0.win 1).blk t).view.emb (ix2 k (j 1)))
      = V c main_arg3 (ix2 k ((((cfg0.win 2).blk t).view.emb j) 1))
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v28).slice (win0_2.rect t)).set ↔ _
  rw [View.set_slice_whole, Rect.mem_set_unit]
  exact Iff.rfl

/-- Row `r` of the output is written back by point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨e0, e1, e2, e3, e4, e5⟩ := blocks ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]
    omega

/-- After the region the output array is the whole product of the arrays the region found. -/
theorem final (c : Dev nD) : (dat0 V c).arrAt 2 cfg0.N = whole V c :=
  (dat0 V c).arrAt_eq_of_cover 2 (whole V c) (fun t _ => flushed_eq V c t) (cover)

end Cert.KernelIdeal.FirstProduct

end
-- ==== Proof.SecondProduct.lean ====
/-
  The second region's output array.

  The region runs the second kernel body at 50 grid points. Point `t` reads rows `2000·t … 2000·t + 1999` of the
  aggregated first layer, the one-row bias and the whole second weight matrix, and writes back rows
  `2000·t … 2000·t + 1999` of the output. What it writes is: bias added to every row of its block, clamped at zero,
  times the weights. Bias-and-clamp acts entry by entry and a product's row reads one row of its left operand, so this is
  that block of rows of the same expression on the whole arrays; the 50 blocks of rows tile the output.
-/
import proofs.«137082_j79714593014200_2_alg».proof.Proof.Gen.KernelIdeal.Frame
import proofs.«137082_j79714593014200_2_alg».proof.Proof.Payloads
import Idealize.ShloMosaic.Lib.Pipeline.Value

set_option maxRecDepth 16384

noncomputable section

open scoped BigOperators

namespace Cert.KernelIdeal.SecondProduct

open Idealize.ShloMosaic Idealize.ShloMosaic.TcCoe Idealize.ShloMosaic.ValueIdx Idealize.SL.Sem
open Idealize.ShloMosaic.Pipeline (Dat)
open Cert.KernelIdeal Cert.KernelIdeal.Gen Cert.RowProducts

variable (V : (c : Dev nD) → (b : Ref sig .tc) → Buf (Elt Ideal) ((c : Thread nD τ).loc b))

theorem zeros : (![0, 0] : Fin 2 → Nat) = fun _ => 0 := funext fun a => by fin_cases a <;> rfl

/-- The block indices at point `t`: rows-block `t` of the left operand and of the output, the one block of the bias row
    and of the weights. -/
theorem blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias row the region found, as a function of the column. -/
abbrev biasRow (c : Dev nD) : Fin 128 → EReal := fun k => V c main_v46 (ix2 (0 : Fin 1) k)

/-- Bias, clamp at zero, product — on the whole arrays, as a content of the output array. -/
abbrev whole (c : Dev nD) : (⟨2, ![100000, 64]⟩ : Shape).Idx → EReal :=
  matProd (M := 100000) (K := 128) (N := 64)
    (biasClamp (M := 100000) (K := 128) (Ideal.ofBits .f32 0x00000000#32) (V c main_v45) (biasRow V c)) (V c main_arg5)

/-- What point `t` writes back is block `t` of the whole expression. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero zeros]
  simp only [View.ld_unit_zero (S := S2000x128) zeros, View.ld_unit_zero (S := S1x128) zeros,
    View.ld_unit_zero (S := S128x64) zeros]
  rw [Payloads.pay1_eq]
  obtain ⟨e0, e1, e2, e3, e4, e5, e6, e7⟩ := blocks t
  funext j
  show matProd (M := 2000) (K := 128) (N := 64)
      (biasClamp (M := 2000) (K := 128) (Ideal.ofBits .f32 0x00000000#32) (iblk1 V c 0 t)
        (fun k : Fin 128 => iblk1 V c 1 t (ix2 (0 : Fin 1) k))) (iblk1 V c 2 t) j
    = matProd (M := 100000) (K := 128) (N := 64)
      (biasClamp (M := 100000) (K := 128) (Ideal.ofBits .f32 0x00000000#32) (V c main_v45) (biasRow V c)) (V c main_arg5)
      (((cfg1.win 3).blk t).view.emb j)
  refine matProd_block (M := 100000) (m := 2000) (K := 128) (N := 64) (n := 64)
    (biasClamp (M := 100000) (K := 128) (Ideal.ofBits .f32 0x00000000#32) (V c main_v45) (biasRow V c))
    (biasClamp (M := 2000) (K := 128) (Ideal.ofBits .f32 0x00000000#32) (iblk1 V c 0 t)
      (fun k : Fin 128 => iblk1 V c 1 t (ix2 (0 : Fin 1) k)))
    (V c main_arg5) (iblk1 V c 2 t) j (((cfg1.win 3).blk t).view.emb j) (fun k => ?_) (fun k => ?_)
  · refine biasClamp_block (M := 100000) (m := 2000) (K := 128) (Ideal.ofBits .f32 0x00000000#32) (V c main_v45)
      (iblk1 V c 0 t) (biasRow V c) (fun k : Fin 128 => iblk1 V c 1 t (ix2 (0 : Fin 1) k)) (j 0)
      ((((cfg1.win 3).blk t).view.emb j) 0) k ?_ ?_
    · show V c main_v45 (((cfg1.win 0).blk t).view.emb (ix2 (j 0) k))
        = V c main_v45 (ix2 ((((cfg1.win 3).blk t).view.emb j) 0) k)
      refine congrArg (V c main_v45) (funext fun a => Fin.ext ?_)
      match a with
      | ⟨0, _⟩ =>
        show win1_0.index t (0 : Fin 2) * 2000 + 1 * (j 0).val = win1_3.index t (0 : Fin 2) * 2000 + 1 * (j 0).val
        omega
      | ⟨1, _⟩ =>
        show win1_0.index t (1 : Fin 2) * 128 + 1 * k.val = k.val
        omega
    · show V c main_v46 (((cfg1.win 1).blk t).view.emb (ix2 (0 : Fin 1) k)) = V c main_v46 (ix2 (0 : Fin 1) k)
      refine congrArg (V c main_v46) (funext fun a => Fin.ext ?_)
      match a with
      | ⟨0, _⟩ =>
        show win1_1.index t (0 : Fin 2) * 1 + 1 * 0 = 0
        omega
      | ⟨1, _⟩ =>
        show win1_1.index t (1 : Fin 2) * 128 + 1 * k.val = k.val
        omega
  · show V c main_arg5 (((cfg1.win 2).blk t).view.emb (ix2 k (j 1)))
      = V c main_arg5 (ix2 k ((((cfg1.win 3).blk t).view.emb j) 1))
    refine congrArg (V c main_arg5) (funext fun a => Fin.ext ?_)
    match a with
    | ⟨0, _⟩ =>
      show win1_2.index t (0 : Fin 2) * 128 + 1 * k.val = k.val
      omega
    | ⟨1, _⟩ =>
      show win1_2.index t (1 : Fin 2) * 64 + 1 * (j 1).val = win1_3.index t (1 : Fin 2) * 64 + 1 * (j 1).val
      omega

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v47).slice (win1_3.rect t)).set ↔ _
  rw [View.set_slice_whole, Rect.mem_set_unit]
  exact Iff.rfl

/-- Row `r` of the output is written back by point `r / 2000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨e0, e1, e2, e3, e4, e5, e6, e7⟩ := blocks ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e7]
    omega

/-- After the region the output array is bias, clamp, product of the arrays the region found. -/
theorem final (c : Dev nD) : (dat1 V c).arrAt 3 cfg1.N = whole V c :=
  (dat1 V c).arrAt_eq_of_cover 3 (whole V c) (fun t _ => flushed_eq V c t) (cover)

end Cert.KernelIdeal.SecondProduct

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«137082_j79714593014200_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RefForms.lean ====
/-
  The reference's two dense products, and its repeated degree terms.

  The reference forms each layer's product by a general dot product of whole arrays: entry `(p, q)` is the sum over `k` of
  the left operand's `(p, k)` times the right operand's `(k, q)`. Before the second product it adds the first bias to every
  row (the bias lifted to a `[1, 128]` row and that row broadcast over the rows) and clamps at zero. So the first product is
  `matProd x W1` and the second is `matProd (biasClamp 0 a b1) W2` of the aggregated first layer `a`.

  The reference computes the edge normalisation and the inverse degree once per layer, by the same operations on the
  same edge list: the two copies are one term.
-/
import proofs.«137082_j79714593014200_2_alg».proof.Proof.Gen.ReferenceIdeal.Read
import proofs.«137082_j79714593014200_2_alg».proof.Proof.LibPlainDot
import proofs.«137082_j79714593014200_2_alg».proof.Proof.LibRowProducts
import Idealize.ShloMosaic.Lib.ValueIdx

set_option maxRecDepth 16384

noncomputable section

open scoped BigOperators

namespace Cert.ReferenceIdeal.Forms

open Idealize.ShloMosaic Idealize.ShloMosaic.ValueIdx
open Cert.ReferenceIdeal Cert.ReferenceIdeal.Gen Cert.ReferenceIdeal.Read Cert.RowProducts

/-- The first layer's product. -/
theorem first_product (x0 : (⟨S100000x128, .f32⟩ : BufTy).Contents (Elt Ideal)) (x3 : (⟨S128x128, .f32⟩ : BufTy).Contents (Elt Ideal)) :
    val_main_v4 (F := Ideal) x0 x3 = matProd (M := 100000) (K := 128) (N := 128) x0 x3 := by
  funext i
  obtain ⟨p, q, rfl⟩ : ∃ (p : Fin 100000) (q : Fin 128), i = ix2 p q := ⟨i 0, i 1, eq_ix2 i⟩
  unfold val_main_v4
  exact Cert.LibPlainDot.dot_plain_apply _ rfl none x0 x3 p q

/-- Bias added and clamped at zero, at an entry, for any array `A` in place of the aggregated first layer. -/
theorem bias_clamp_at (A : FVec Ideal S100000x128 .f32) (x4 : (⟨S128, .f32⟩ : BufTy).Contents (Elt Ideal))
    (p : Fin 100000) (k : Fin 128) :
    (maximumf (addf A (val_main_v47 (F := Ideal) x4)) (val_main_call0_v0 (F := Ideal)) : FVec Ideal S100000x128 .f32) (ix2 p k)
      = max (A (ix2 p k) + x4 (ix1 k)) (Ideal.ofBits .f32 0x00000000#32) := by
  show max (A (ix2 p k) + val_main_v47 (F := Ideal) x4 (ix2 p k)) (val_main_call0_v0 (F := Ideal) (ix2 p k)) = _
  rw [val_main_v47_apply, val_main_v46_apply, val_main_call0_v0_apply, val_main_call0_cst_apply]
  refine congrArg₂ max (congrArg (A (ix2 p k) + ·) (congrArg x4 ?_)) rfl
  exact funext fun a => Fin.ext (by match a with | ⟨0, _⟩ => rfl)

/-- The second layer's product, of the first layer's aggregate with bias added and clamped at zero. -/
theorem second_product (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) :
    val_main_v50 (F := Ideal) x0 x1 x3 x4 x5 = matProd (M := 100000) (K := 128) (N := 64)
      (biasClamp (M := 100000) (K := 128) (Ideal.ofBits .f32 0x00000000#32) (val_main_v45 (F := Ideal) x0 x1 x3)
        (fun k : Fin 128 => x4 (ix1 k))) x5 := by
  unfold val_main_v50 val_main_v49 val_main_v48
  generalize val_main_v45 (F := Ideal) x0 x1 x3 = A
  funext i
  obtain ⟨p, q, rfl⟩ : ∃ (p : Fin 100000) (q : Fin 64), i = ix2 p q := ⟨i 0, i 1, eq_ix2 i⟩
  refine (Cert.LibPlainDot.dot_plain_apply _ rfl none
    (maximumf (addf A (val_main_v47 (F := Ideal) x4)) (val_main_call0_v0 (F := Ideal))) x5 p q).trans ?_
  rw [matProd_ix2]
  refine Finset.sum_congr rfl fun k _ => ?_
  rw [biasClamp_ix2]
  exact congrArg (· * x5 (ix2 k q)) (bias_clamp_at A x4 p k)

/-- The second layer's edge normalisation is the first layer's. -/
theorem norm_again (x1 : (⟨S2x1600000, .i32⟩ : BufTy).Contents (Elt Ideal)) :
    val_main_v72 (F := Ideal) x1 = val_main_v26 (F := Ideal) x1 := rfl

/-- The second layer's inverse degree is the first layer's. -/
theorem invdeg_again (x1 : (⟨S2x1600000, .i32⟩ : BufTy).Contents (Elt Ideal)) :
    val_main_v87 (F := Ideal) x1 = val_main_v41 (F := Ideal) x1 := rfl

end Cert.ReferenceIdeal.Forms

end
-- ==== Proof.Stages.lean ====
/-
  The idealized program's buffers at each boundary, as the reference's stages of the argument arrays.

  The program's host operations are, operation for operation, the reference's: the degree count by a scatter-add of ones,
  its inverse square root gathered at both ends of every edge and multiplied (the edge normalisation), the inverse degree,
  and per layer a gather of the layer's product along the edges, the scaling by the edge normalisation, a scatter-add
  onto the target nodes, plus the product scaled by the inverse degree; finally the second bias, a gather at both ends of
  every label edge, and the sum of the products over the 64 features. The only differences are that the two dense
  products are computed by the two regions (whose output arrays are those products: `FirstProduct.final`,
  `SecondProduct.final`), that the first bias reaches the second region as a `[1, 128]` row made by a reshape, and that the
  program computes the edge normalisation and the inverse degree once where the reference computes them per layer.

  So, walking the boundaries in order: before the first region the edge lists, the edge normalisation and the inverse
  degree hold the reference's stages; the first region's output is the reference's first product; before the second
  region the aggregated first layer holds the reference's; the second region's output is the reference's second product;
  and the result is the reference's result.
-/
import proofs.«137082_j79714593014200_2_alg».proof.Proof.Gen.KernelIdeal.Frame
import proofs.«137082_j79714593014200_2_alg».proof.Proof.FirstProduct
import proofs.«137082_j79714593014200_2_alg».proof.Proof.SecondProduct
import proofs.«137082_j79714593014200_2_alg».proof.Proof.RefForms
import Idealize.ShloMosaic.Lib.StableHlo.Run
import Idealize.ShloMosaic.Lib.ValueLayout

set_option maxRecDepth 16384

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen Cert.RowProducts
open Cert.ReferenceIdeal.Read (val_main_v1 val_main_v3 val_main_v4 val_main_v26 val_main_v41 val_main_v45 val_main_v50
  val_main_v72 val_main_v87 val_main_v114)

variable (m : (ℓ : Loc nD τ sig) → Buf (Elt Ideal) ℓ) (ρ : Dev nD → PrngReg) (c : Dev nD)

/-! ## Before the first region -/

theorem W1_arg0 : W1 m ρ c (Proc.devRef .tc main_arg0) = m ((c.tc : Thread nD τ).loc main_arg0) := by
  show StableHlo.after hostOps0 (W0 m ρ c) (Proc.devRef .tc main_arg0) = _
  after_results_simp <;> rfl
theorem W1_arg2 : W1 m ρ c (Proc.devRef .tc main_arg2) = m ((c.tc : Thread nD τ).loc main_arg2) := by
  show StableHlo.after hostOps0 (W0 m ρ c) (Proc.devRef .tc main_arg2) = _
  after_results_simp <;> rfl
theorem W1_arg3 : W1 m ρ c (Proc.devRef .tc main_arg3) = m ((c.tc : Thread nD τ).loc main_arg3) := by
  show StableHlo.after hostOps0 (W0 m ρ c) (Proc.devRef .tc main_arg3) = _
  after_results_simp <;> rfl
theorem W1_arg4 : W1 m ρ c (Proc.devRef .tc main_arg4) = m ((c.tc : Thread nD τ).loc main_arg4) := by
  show StableHlo.after hostOps0 (W0 m ρ c) (Proc.devRef .tc main_arg4) = _
  after_results_simp <;> rfl
theorem W1_arg5 : W1 m ρ c (Proc.devRef .tc main_arg5) = m ((c.tc : Thread nD τ).loc main_arg5) := by
  show StableHlo.after hostOps0 (W0 m ρ c) (Proc.devRef .tc main_arg5) = _
  after_results_simp <;> rfl
theorem W1_arg6 : W1 m ρ c (Proc.devRef .tc main_arg6) = m ((c.tc : Thread nD τ).loc main_arg6) := by
  show StableHlo.after hostOps0 (W0 m ρ c) (Proc.devRef .tc main_arg6) = _
  after_results_simp <;> rfl

/-- The source ends of the edges. -/
theorem W1_v1 : W1 m ρ c (Proc.devRef .tc main_v1) = val_main_v1 (F := Ideal) (m ((c.tc : Thread nD τ).loc main_arg1)) := by
  show StableHlo.after hostOps0 (W0 m ρ c) (Proc.devRef .tc main_v1) = _
  after_results_simp <;> rfl
/-- The target ends of the edges. -/
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl
/-- The edge normalisation. -/
theorem W1_v25 : W1 m ρ c (Proc.devRef .tc main_v25) = val_main_v26 (F := Ideal) (m ((c.tc : Thread nD τ).loc main_arg1)) := by
  show StableHlo.after hostOps0 (W0 m ρ c) (Proc.devRef .tc main_v25) = _
  after_results_simp <;> rfl
/-- The inverse degree. -/
theorem W1_v27 : W1 m ρ c (Proc.devRef .tc main_v27) = val_main_v41 (F := Ideal) (m ((c.tc : Thread nD τ).loc main_arg1)) := by
  show StableHlo.after hostOps0 (W0 m ρ c) (Proc.devRef .tc main_v27) = _
  after_results_simp <;> rfl

/-! ## After the first region -/

/-- The first region's output array is the reference's first product. -/
theorem W2_v28 : W2 m ρ c (Proc.devRef .tc main_v28)
    = val_main_v4 (F := Ideal) (m ((c.tc : Thread nD τ).loc main_arg0)) (m ((c.tc : Thread nD τ).loc main_arg3)) := by
  refine (W2_arr m ρ c 2).trans ((FirstProduct.final (V1 m ρ) c).trans ?_)
  show matProd (M := 100000) (K := 128) (N := 128) (W1 m ρ c (Proc.devRef .tc main_arg0)) (W1 m ρ c (Proc.devRef .tc main_arg3)) = _
  rw [W1_arg0 m ρ c, W1_arg3 m ρ c]
  exact (Cert.ReferenceIdeal.Forms.first_product _ _).symm

theorem W2_arg2 : W2 m ρ c (Proc.devRef .tc main_arg2) = m ((c.tc : Thread nD τ).loc main_arg2) :=
  (W2_of_ne m ρ c main_arg2 (by decide)).trans (W1_arg2 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_v25 : W2 m ρ c (Proc.devRef .tc main_v25) = val_main_v26 (F := Ideal) (m ((c.tc : Thread nD τ).loc main_arg1)) :=
  (W2_of_ne m ρ c main_v25 (by decide)).trans (W1_v25 m ρ c)
theorem W2_v27 : W2 m ρ c (Proc.devRef .tc main_v27) = val_main_v41 (F := Ideal) (m ((c.tc : Thread nD τ).loc main_arg1)) :=
  (W2_of_ne m ρ c main_v27 (by decide)).trans (W1_v27 m ρ c)

/-! ## Before the second region -/

/-- The aggregated first layer. -/
theorem W3_v45 : W3 m ρ c (Proc.devRef .tc main_v45)
    = val_main_v45 (F := Ideal) (m ((c.tc : Thread nD τ).loc main_arg0)) (m ((c.tc : Thread nD τ).loc main_arg1))
        (m ((c.tc : Thread nD τ).loc main_arg3)) := by
  show StableHlo.after hostOps1 (W2 m ρ c) (Proc.devRef .tc main_v45) = _
  after_results_simp
  rw [W2_v28 m ρ c, W2_v25 m ρ c, W2_v27 m ρ c, W2_v1 m ρ c, W2_v3 m ρ c]
  rfl

/-- The first bias as the `[1, 128]` row the second region reads. -/
theorem W3_bias (k : Fin 128) :
    W3 m ρ c (Proc.devRef .tc main_v46) (ix2 (0 : Fin 1) k) = m ((c.tc : Thread nD τ).loc main_arg4) (ix1 k) := by
  have e : W3 m ρ c (Proc.devRef .tc main_v46)
      = shapeCast S1x128 (W2 m ρ c (Proc.devRef .tc main_arg4)) Facts₀.shapeCasts_S128_S1x128 := by
    show StableHlo.after hostOps1 (W2 m ρ c) (Proc.devRef .tc main_v46) = _
    after_results_simp <;> rfl
  rw [e, W2_arg4 m ρ c]
  exact shapeCast_a_1a_apply _ _ (0 : Fin 1) k

theorem W3_arg2 : W3 m ρ c (Proc.devRef .tc main_arg2) = m ((c.tc : Thread nD τ).loc main_arg2) := by
  refine Eq.trans ?_ (W2_arg2 m ρ c)
  show StableHlo.after hostOps1 (W2 m ρ c) (Proc.devRef .tc main_arg2) = _
  after_results_simp <;> rfl
theorem W3_arg5 : W3 m ρ c (Proc.devRef .tc main_arg5) = m ((c.tc : Thread nD τ).loc main_arg5) := by
  refine Eq.trans ?_ (W2_arg5 m ρ c)
  show StableHlo.after hostOps1 (W2 m ρ c) (Proc.devRef .tc main_arg5) = _
  after_results_simp <;> rfl
theorem W3_arg6 : W3 m ρ c (Proc.devRef .tc main_arg6) = m ((c.tc : Thread nD τ).loc main_arg6) := by
  refine Eq.trans ?_ (W2_arg6 m ρ c)
  show StableHlo.after hostOps1 (W2 m ρ c) (Proc.devRef .tc main_arg6) = _
  after_results_simp <;> rfl
theorem W3_v1 : W3 m ρ c (Proc.devRef .tc main_v1) = val_main_v1 (F := Ideal) (m ((c.tc : Thread nD τ).loc main_arg1)) := by
  refine Eq.trans ?_ (W2_v1 m ρ c)
  show StableHlo.after hostOps1 (W2 m ρ c) (Proc.devRef .tc main_v1) = _
  after_results_simp <;> rfl
theorem W3_v3 : W3 m ρ c (Proc.devRef .tc main_v3) = val_main_v3 (F := Ideal) (m ((c.tc : Thread nD τ).loc main_arg1)) := by
  refine Eq.trans ?_ (W2_v3 m ρ c)
  show StableHlo.after hostOps1 (W2 m ρ c) (Proc.devRef .tc main_v3) = _
  after_results_simp <;> rfl
theorem W3_v25 : W3 m ρ c (Proc.devRef .tc main_v25) = val_main_v26 (F := Ideal) (m ((c.tc : Thread nD τ).loc main_arg1)) := by
  refine Eq.trans ?_ (W2_v25 m ρ c)
  show StableHlo.after hostOps1 (W2 m ρ c) (Proc.devRef .tc main_v25) = _
  after_results_simp <;> rfl
theorem W3_v27 : W3 m ρ c (Proc.devRef .tc main_v27) = val_main_v41 (F := Ideal) (m ((c.tc : Thread nD τ).loc main_arg1)) := by
  refine Eq.trans ?_ (W2_v27 m ρ c)
  show StableHlo.after hostOps1 (W2 m ρ c) (Proc.devRef .tc main_v27) = _
  after_results_simp <;> rfl

/-! ## After the second region -/

/-- The second region's output array is the reference's second product. -/
theorem W4_v47 : W4 m ρ c (Proc.devRef .tc main_v47)
    = val_main_v50 (F := Ideal) (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5)) := by
  refine (W4_arr m ρ c 3).trans ((SecondProduct.final (V3 m ρ) c).trans ?_)
  rw [Cert.ReferenceIdeal.Forms.second_product]
  show matProd (M := 100000) (K := 128) (N := 64)
      (biasClamp (M := 100000) (K := 128) (Ideal.ofBits .f32 0x00000000#32) (W3 m ρ c (Proc.devRef .tc main_v45))
        (fun k : Fin 128 => W3 m ρ c (Proc.devRef .tc main_v46) (ix2 (0 : Fin 1) k)))
      (W3 m ρ c (Proc.devRef .tc main_arg5)) = _
  rw [W3_v45 m ρ c, W3_arg5 m ρ c, funext (W3_bias m ρ c)]

theorem W4_arg2 : W4 m ρ c (Proc.devRef .tc main_arg2) = m ((c.tc : Thread nD τ).loc main_arg2) :=
  (W4_of_ne m ρ c main_arg2 (by decide)).trans (W3_arg2 m ρ c)
theorem W4_arg6 : W4 m ρ c (Proc.devRef .tc main_arg6) = m ((c.tc : Thread nD τ).loc main_arg6) :=
  (W4_of_ne m ρ c main_arg6 (by decide)).trans (W3_arg6 m ρ c)
theorem W4_v1 : W4 m ρ c (Proc.devRef .tc main_v1) = val_main_v1 (F := Ideal) (m ((c.tc : Thread nD τ).loc main_arg1)) :=
  (W4_of_ne m ρ c main_v1 (by decide)).trans (W3_v1 m ρ c)
theorem W4_v3 : W4 m ρ c (Proc.devRef .tc main_v3) = val_main_v3 (F := Ideal) (m ((c.tc : Thread nD τ).loc main_arg1)) :=
  (W4_of_ne m ρ c main_v3 (by decide)).trans (W3_v3 m ρ c)
/-- The edge normalisation, under the name of the reference's second copy. -/
theorem W4_v25 : W4 m ρ c (Proc.devRef .tc main_v25) = val_main_v72 (F := Ideal) (m ((c.tc : Thread nD τ).loc main_arg1)) :=
  ((W4_of_ne m ρ c main_v25 (by decide)).trans (W3_v25 m ρ c)).trans (Cert.ReferenceIdeal.Forms.norm_again _).symm
/-- The inverse degree, under the name of the reference's second copy. -/
theorem W4_v27 : W4 m ρ c (Proc.devRef .tc main_v27) = val_main_v87 (F := Ideal) (m ((c.tc : Thread nD τ).loc main_arg1)) :=
  ((W4_of_ne m ρ c main_v27 (by decide)).trans (W3_v27 m ρ c)).trans (Cert.ReferenceIdeal.Forms.invdeg_again _).symm

/-! ## The result -/

/-- The result buffer at the last boundary is the reference's result stage of the argument arrays. -/
theorem W5_v87 : W5 m ρ c (Proc.devRef .tc main_v87)
    = val_main_v114 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  show StableHlo.after hostOps2 (W4 m ρ c) (Proc.devRef .tc main_v87) = _
  after_results_simp
  rw [W4_v47 m ρ c, W4_v25 m ρ c, W4_v27 m ρ c, W4_v1 m ρ c, W4_v3 m ρ c, W4_arg6 m ρ c, W4_arg2 m ρ c]
  rfl

end Cert.KernelIdeal.Stages

end
-- ==== Proof.lean ====
/-
  A two-layer graph convolution followed by a link decoder, computed two ways, gives one result on the extended reals.

  Both programs take node features `x`, an edge list, a list of label edges, and two layers' weights and biases. With
  `deg` the in-degree plus one, `norm(e) = deg(src e)^(-1/2) · deg(dst e)^(-1/2)` and `inv = 1 / deg`, a layer sends `h` to
  `agg(h)(n) = Σ_{e : dst e = n} h(src e) · norm(e) + h(n) · inv(n)`. The result at a label edge `(a, b)` is
  `Σ_f z(a, f) · z(b, f)` for `z = agg(max(agg(x · W1) + b1, 0) · W2) + b2`.

  The reference forms the two dense products `· W1` and `· W2` as whole-array products. The kernel program forms each
  as a row-blocked product over 50 grid points of 2000 rows each, the second with the bias-and-rectifier applied to its
  left block first; a product's row depends on one row of its left operand, so the blocks of rows are the rows of the
  whole product and they tile the output (`FirstProduct`, `SecondProduct`). Every other operation is the same operation
  in both programs, applied to equal operands (`Stages`): the program's result buffer ends at the reference's result
  term of the argument arrays. No law of arithmetic beyond reading a product entry by entry is used, so the
  precondition is never opened.

  The three frame claims: the two kernel programs by their generated frames, the reference by its generated run with
  the result dropped. The idealization rewrote no operation, so `preserves` is trivially true.
-/
import proofs.«137082_j79714593014200_2_alg».proof.Defs
import proofs.«137082_j79714593014200_2_alg».proof.Proof.Gen.Kernel
import proofs.«137082_j79714593014200_2_alg».proof.Proof.Gen.Kernel.Skeleton
import proofs.«137082_j79714593014200_2_alg».proof.Proof.Gen.Kernel.Launch
import proofs.«137082_j79714593014200_2_alg».proof.Proof.Gen.Kernel.Points
import proofs.«137082_j79714593014200_2_alg».proof.Proof.Gen.Kernel.Frame
import proofs.«137082_j79714593014200_2_alg».proof.Proof.Gen.KernelIdeal
import proofs.«137082_j79714593014200_2_alg».proof.Proof.Gen.KernelIdeal.Skeleton
import proofs.«137082_j79714593014200_2_alg».proof.Proof.Gen.KernelIdeal.Launch
import proofs.«137082_j79714593014200_2_alg».proof.Proof.Gen.KernelIdeal.Points
import proofs.«137082_j79714593014200_2_alg».proof.Proof.Gen.KernelIdeal.Frame
import proofs.«137082_j79714593014200_2_alg».proof.Proof.Gen.ReferenceIdeal
import proofs.«137082_j79714593014200_2_alg».proof.Proof.Gen.ReferenceIdeal.Run
import proofs.«137082_j79714593014200_2_alg».proof.Proof.Gen.ReferenceIdeal.Read
import proofs.«137082_j79714593014200_2_alg».proof.Proof.Gen.Pre_finite_inputs
import proofs.«137082_j79714593014200_2_alg».proof.Proof.KernelRun
import proofs.«137082_j79714593014200_2_alg».proof.Proof.Stages
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) argument arrays. -/
theorem algebraic : Cert.algebraic_KernelIdeal_ReferenceIdeal := by
  intro m ρ m' ρ' _ hagree
  refine ⟨fun c => Cert.ReferenceIdeal.Read.val_main_v114 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.W5_v87 m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v114_eq, (hagree c).1, (hagree c).2.1, (hagree c).2.2.1, (hagree c).2.2.2.1,
      (hagree c).2.2.2.2.1, (hagree c).2.2.2.2.2.1, (hagree c).2.2.2.2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
